-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x10000 : Shape := ⟨2, ![4096, 10000]⟩
abbrev S_ : Shape := ⟨0, ![]⟩

class Facts : Prop where
  bcast_S_S4096x10000 : S_.BroadcastsInDim S4096x10000 (![] : Fin 0 → Fin S4096x10000.rank)
  reducesTo_S4096x10000_S_d0_1 : S4096x10000.ReducesTo [0, 1] S_
  h_S_ : 0 < S_.numel

variable [Facts]

def fn {F : FTy → Type} [FloatOps F] (main_arg0 : FVec F S4096x10000 .f32) (main_arg1 : FVec F S4096x10000 .f32) : IVec S_ 1 :=
  let main_v0 : FVec F S4096x10000 .f32 := Host.absf main_arg0
  let main_cst : FVec F S_ .f32 := constant S_ .f32 0x7F800000#32
  let main_v1 : FVec F S4096x10000 .f32 := broadcastInDim S4096x10000 ![] bcast_S_S4096x10000 main_cst
  let main_v2 : IVec S4096x10000 1 := cmpf .olt main_v0 main_v1
  let main_c : IVec S_ 1 := constantI S_ 1 1#1
  let main_v3 : IVec S_ 1 := (fun x v => Host.reduce IntOp.andi x v reducesTo_S4096x10000_S_d0_1 h_S_) main_v2 main_c
  let main_v4 : FVec F S4096x10000 .f32 := Host.absf main_arg1
  let main_cst_0 : FVec F S_ .f32 := constant S_ .f32 0x7F800000#32
  let main_v5 : FVec F S4096x10000 .f32 := broadcastInDim S4096x10000 ![] bcast_S_S4096x10000 main_cst_0
  let main_v6 : IVec S4096x10000 1 := cmpf .olt main_v4 main_v5
  let main_c_1 : IVec S_ 1 := constantI S_ 1 1#1
  let main_v7 : IVec S_ 1 := (fun x v => Host.reduce IntOp.andi x v reducesTo_S4096x10000_S_d0_1 h_S_) main_v6 main_c_1
  let main_v8 : IVec S_ 1 := andi main_v3 main_v7
  main_v8
-- ==== Kernel.lean ====
abbrev S4096x10000 : Shape := ⟨2, ![4096, 10000]⟩
abbrev S4096x2000x5 : Shape := ⟨3, ![4096, 2000, 5]⟩
abbrev S8x2000 : Shape := ⟨2, ![8, 2000]⟩
abbrev S_ : Shape := ⟨0, ![]⟩
abbrev S2000 : Shape := ⟨1, ![2000]⟩
abbrev S8x2000x5 : Shape := ⟨3, ![8, 2000, 5]⟩
abbrev S8x2000x1 : Shape := ⟨3, ![8, 2000, 1]⟩

abbrev nBuf : Space → Nat
  | .hbm => 24
  | .vmem => 7
  | .smem => 0
  | _ => 0

abbrev bufTy : (tb : Table) → Fin (tcTables nBuf tb) → BufTy
  | .hbm, ⟨0, _⟩ => ⟨S4096x10000, .f32⟩
  | .hbm, ⟨1, _⟩ => ⟨S4096x10000, .f32⟩
  | .hbm, ⟨2, _⟩ => ⟨S4096x2000x5, .f32⟩
  | .hbm, ⟨3, _⟩ => ⟨S4096x2000x5, .f32⟩
  | .hbm, ⟨4, _⟩ => ⟨S8x2000, .f32⟩
  | .hbm, ⟨5, _⟩ => ⟨S8x2000, .f32⟩
  | .hbm, ⟨6, _⟩ => ⟨S8x2000, .f32⟩
  | .hbm, ⟨7, _⟩ => ⟨S_, .f32⟩
  | .hbm, ⟨8, _⟩ => ⟨S2000, .f32⟩
  | .hbm, ⟨9, _⟩ => ⟨S_, .f32⟩
  | .hbm, ⟨10, _⟩ => ⟨S2000, .f32⟩
  | .hbm, ⟨11, _⟩ => ⟨S_, .f32⟩
  | .hbm, ⟨12, _⟩ => ⟨S2000, .f32⟩
  | .hbm, ⟨13, _⟩ => ⟨S2000, .f32⟩
  | .hbm, ⟨14, _⟩ => ⟨S_, .f32⟩
  | .hbm, ⟨15, _⟩ => ⟨S_, .f32⟩
  | .hbm, ⟨16, _⟩ => ⟨S2000, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S8x2000x5, .f32⟩
  | .local _ .vmem, ⟨1, _⟩ => ⟨S8x2000x5, .f32⟩
  | .local _ .vmem, ⟨2, _⟩ => ⟨S8x2000x5, .f32⟩
  | .local _ .vmem, ⟨3, _⟩ => ⟨S8x2000x5, .f32⟩
  | .local _ .vmem, ⟨4, _⟩ => ⟨S8x2000, .f32⟩
  | .local _ .vmem, ⟨5, _⟩ => ⟨S8x2000, .f32⟩
  | .local _ .vmem, ⟨6, _⟩ => ⟨S8x2000, .f32⟩
  | _, _ => ⟨S4096x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2_0 : Ref sig .tc := ⟨.hbm, 4, rfl⟩
abbrev main_call0_v2_1 : Ref sig .tc := ⟨.hbm, 5, rfl⟩
abbrev main_call0_v2_2 : Ref sig .tc := ⟨.hbm, 6, rfl⟩
abbrev main_call0_cst : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_cst_1 : Ref sig .tc := ⟨.hbm, 11, rfl⟩
abbrev main_call0_v5 : Ref sig .tc := ⟨.hbm, 12, rfl⟩
abbrev main_call0_v6 : Ref sig .tc := ⟨.hbm, 13, rfl⟩
abbrev main_call0_cst_2 : Ref sig .tc := ⟨.hbm, 14, rfl⟩
abbrev main_call0_v7 : Ref sig .tc := ⟨.hbm, 15, rfl⟩
abbrev main_call0_v8 : Ref sig .tc := ⟨.hbm, 16, rfl⟩
abbrev main_call0_cst_3 : Ref sig .tc := ⟨.hbm, 17, rfl⟩
abbrev main_call0_v9 : Ref sig .tc := ⟨.hbm, 18, rfl⟩
abbrev main_call0_cst_4 : Ref sig .tc := ⟨.hbm, 19, rfl⟩
abbrev main_call0_v10 : Ref sig .tc := ⟨.hbm, 20, rfl⟩
abbrev main_call0_cst_5 : Ref sig .tc := ⟨.hbm, 21, rfl⟩
abbrev main_call0_v11 : Ref sig .tc := ⟨.hbm, 22, rfl⟩
abbrev main_v0 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![512], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x2000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2000x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S4096x10000_S4096x2000x5 : S4096x10000.ShapeCasts S4096x2000x5
  reducesTo_S8x2000_S2000_d0 : S8x2000.ReducesTo [0] S2000
  h_S_ : 0 < S_.numel
  bcast_S_S2000 : S_.BroadcastsInDim S2000 (![] : Fin 0 → Fin S2000.rank)
  reducesTo_S8x2000_S_d0_1 : S8x2000.ReducesTo [0, 1] S_
  reducesTo_S2000_S_d0 : S2000.ReducesTo [0] S_
  inb_S8x2000_S8x2000_0_0 : ∀ a, (![0, 0] : Fin 2 → Nat) a + S8x2000.size a ≤ S8x2000.size a
  h_S8x2000 : 0 < S8x2000.numel
  inb_S8x2000x5_S8x2000x5_0_0_0 : ∀ a, (![0, 0, 0] : Fin 3 → Nat) a + S8x2000x5.size a ≤ S8x2000x5.size a
  h_S8x2000x5 : 0 < S8x2000x5.numel
  shapeCasts_S8x2000x5_S8x2000x5 : S8x2000x5.ShapeCasts S8x2000x5
  slices_S8x2000x5_o0_0_0_S8x2000x1 : S8x2000x5.Slices ![0, 0, 0] S8x2000x1
  shapeCasts_S8x2000x1_S8x2000 : S8x2000x1.ShapeCasts S8x2000
  natLt_1_32 : 1 < 32
  slices_S8x2000x5_o0_0_1_S8x2000x1 : S8x2000x5.Slices ![0, 0, 1] S8x2000x1
  slices_S8x2000x5_o0_0_2_S8x2000x1 : S8x2000x5.Slices ![0, 0, 2] S8x2000x1
  slices_S8x2000x5_o0_0_3_S8x2000x1 : S8x2000x5.Slices ![0, 0, 3] S8x2000x1
  slices_S8x2000x5_o0_0_4_S8x2000x1 : S8x2000x5.Slices ![0, 0, 4] S8x2000x1
  shapeCasts_S8x2000_S8x2000 : S8x2000.ShapeCasts S8x2000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2000x5.size a ≤ S4096x2000x5.size a
  hwx0_0 : ∀ i : grid0.Coords, EltTy.bits .f32 = 32 ∨ (Rect.block (s := S4096x2000x5) S8x2000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2000x5.size a ≤ S4096x2000x5.size a
  hwx0_1 : ∀ i : grid0.Coords, EltTy.bits .f32 = 32 ∨ (Rect.block (s := S4096x2000x5) S8x2000x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x2000.size a ≤ S8x2000.size a
  hwx0_2 : ∀ i : grid0.Coords, EltTy.bits .f32 = 32 ∨ (Rect.block (s := S8x2000) S8x2000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x2000.size a ≤ S8x2000.size a
  hwx0_3 : ∀ i : grid0.Coords, EltTy.bits .f32 = 32 ∨ (Rect.block (s := S8x2000) S8x2000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x2000.size a ≤ S8x2000.size a
  hwx0_4 : ∀ i : grid0.Coords, EltTy.bits .f32 = 32 ∨ (Rect.block (s := S8x2000) S8x2000.size (cc0_transform_4 i) (hinb0_4 i)).WholeWords (EltTy.packing .f32)

variable [Facts₀]

abbrev win0_0 : Pipeline.Window sig grid0 :=
  Pipeline.Window.ofSpec (Memref.whole main_call0_v0) S8x2000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S8x2000x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2_0) S8x2000.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2_1) S8x2000.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2_2) S8x2000.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x10000 : Shape := ⟨2, ![4096, 10000]⟩
abbrev S4096x2000x5 : Shape := ⟨3, ![4096, 2000, 5]⟩
abbrev S4096x2000x1 : Shape := ⟨3, ![4096, 2000, 1]⟩
abbrev S4096x2000 : Shape := ⟨2, ![4096, 2000]⟩
abbrev S_ : Shape := ⟨0, ![]⟩
abbrev S4096x2000x4 : Shape := ⟨3, ![4096, 2000, 4]⟩
abbrev S2000 : Shape := ⟨1, ![2000]⟩

abbrev nBuf : Space → Nat
  | .hbm => 49
  | .vmem => 0
  | .smem => 0
  | _ => 0

abbrev bufTy : (tb : Table) → Fin (tcTables nBuf tb) → BufTy
  | .hbm, ⟨0, _⟩ => ⟨S4096x10000, .f32⟩
  | .hbm, ⟨1, _⟩ => ⟨S4096x10000, .f32⟩
  | .hbm, ⟨2, _⟩ => ⟨S4096x2000x5, .f32⟩
  | .hbm, ⟨3, _⟩ => ⟨S4096x2000x5, .f32⟩
  | .hbm, ⟨4, _⟩ => ⟨S4096x2000x1, .f32⟩
  | .hbm, ⟨5, _⟩ => ⟨S4096x2000, .f32⟩
  | .hbm, ⟨6, _⟩ => ⟨S4096x2000x1, .f32⟩
  | .hbm, ⟨7, _⟩ => ⟨S4096x2000, .f32⟩
  | .hbm, ⟨8, _⟩ => ⟨S_, .f32⟩
  | .hbm, ⟨9, _⟩ => ⟨S4096x2000, .f32⟩
  | .hbm, ⟨10, _⟩ => ⟨S4096x2000, .i1⟩
  | .hbm, ⟨11, _⟩ => ⟨S4096x2000, .f32⟩
  | .hbm, ⟨12, _⟩ => ⟨S4096x2000, .f32⟩
  | .hbm, ⟨13, _⟩ => ⟨S4096x2000, .f32⟩
  | .hbm, ⟨14, _⟩ => ⟨S_, .f32⟩
  | .hbm, ⟨15, _⟩ => ⟨S4096x2000, .f32⟩
  | .hbm, ⟨16, _⟩ => ⟨S4096x2000, .f32⟩
  | .hbm, ⟨17, _⟩ => ⟨S_, .f32⟩
  | .hbm, ⟨18, _⟩ => ⟨S4096x2000, .f32⟩
  | .hbm, ⟨19, _⟩ => ⟨S4096x2000, .f32⟩
  | .hbm, ⟨20, _⟩ => ⟨S4096x2000, .f32⟩
  | .hbm, ⟨21, _⟩ => ⟨S4096x2000, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096x2000x4, .f32⟩
  | .hbm, ⟨27, _⟩ => ⟨S4096x2000x4, .f32⟩
  | .hbm, ⟨28, _⟩ => ⟨S4096x2000x4, .f32⟩
  | .hbm, ⟨29, _⟩ => ⟨S4096x2000x4, .f32⟩
  | .hbm, ⟨30, _⟩ => ⟨S_, .f32⟩
  | .hbm, ⟨31, _⟩ => ⟨S4096x2000, .f32⟩
  | .hbm, ⟨32, _⟩ => ⟨S_, .f32⟩
  | .hbm, ⟨33, _⟩ => ⟨S4096x2000, .f32⟩
  | .hbm, ⟨34, _⟩ => ⟨S4096x2000, .f32⟩
  | .hbm, ⟨35, _⟩ => ⟨S4096x2000, .f32⟩
  | .hbm, ⟨36, _⟩ => ⟨S_, .f32⟩
  | .hbm, ⟨37, _⟩ => ⟨S2000, .f32⟩
  | .hbm, ⟨38, _⟩ => ⟨S_, .f32⟩
  | .hbm, ⟨39, _⟩ => ⟨S2000, .f32⟩
  | .hbm, ⟨40, _⟩ => ⟨S_, .f32⟩
  | .hbm, ⟨41, _⟩ => ⟨S2000, .f32⟩
  | .hbm, ⟨42, _⟩ => ⟨S2000, .f32⟩
  | .hbm, ⟨43, _⟩ => ⟨S2000, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S4096x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_cst_8 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_9 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  shapeCasts_S4096x10000_S4096x2000x5 : S4096x10000.ShapeCasts S4096x2000x5
  slices_S4096x2000x5_S4096x2000x1_0_0_0 : S4096x2000x5.Slices ![0, 0, 0] S4096x2000x1
  shapeCasts_S4096x2000x1_S4096x2000 : S4096x2000x1.ShapeCasts S4096x2000
  bcast_S_S4096x2000 : S_.BroadcastsInDim S4096x2000 (![] : Fin 0 → Fin S4096x2000.rank)
  reducesTo_S4096x2000_S_d0_1 : S4096x2000.ReducesTo [0, 1] S_
  h_S_ : 0 < S_.numel
  slices_S4096x2000x5_S4096x2000x4_0_0_1 : S4096x2000x5.Slices ![0, 0, 1] S4096x2000x4
  reducesTo_S4096x2000x4_S4096x2000_d2 : S4096x2000x4.ReducesTo [2] S4096x2000
  reducesTo_S4096x2000_S2000_d0 : S4096x2000.ReducesTo [0] S2000
  bcast_S_S2000 : S_.BroadcastsInDim S2000 (![] : Fin 0 → Fin S2000.rank)
  reducesTo_S2000_S_d0 : S2000.ReducesTo [0] S_

variable [Facts₀]

class Facts : Prop extends Facts₀ where

variable [Facts]
-- ==== Proof.Pieces.lean ====
/-
  What one grid point leaves in the three accumulators.

  The body keeps three running blocks of shape [8, 2000]: the masked box error, the mask, and the squared
  error of the sigmoid. At the first grid point it stores zeros into each, reads them back and adds that
  point's term; at every later point it adds the point's term to what the point before left. Each block is
  written by stores that cover it whole, so what the block holds afterwards is the last store's value, a pure
  function of the two input blocks of the point and (at a later point) of the block's previous contents:
      masked box error : old + mask · box
      mask             : old + mask
      squared error    : old + sq
  where mask, box and sq are the point's terms computed from its input blocks. These six equations hold for
  every float instance.
-/
import proofs.«109152_j14594298871844_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later point leaves `old + mask · box` in the masked-box-error block. -/
theorem later_2 (c : Dev nD) (i : grid0.Coords)
    (a1 : Memref sig .tc .vmem S8x2000x5 .f32) (h1 : a1.IsWhole) (a2 : Memref sig .tc .vmem S8x2000x5 .f32) (h2 : a2.IsWhole)
    (a3 : Memref sig .tc .vmem S8x2000 .f32) (h3 : a3.IsWhole) (a4 : Memref sig .tc .vmem S8x2000 .f32) (h4 : a4.IsWhole)
    (a5 : Memref sig .tc .vmem S8x2000 .f32) (h5 : a5.IsWhole) (hc : ¬cond0_0 i)
    (x0 x1 : Vec F S8x2000x5 .f32) (xo2 xo3 xo4 : Vec F S8x2000 .f32) :
    out0_B_2 c i a1 h1 a2 h2 a3 h3 a4 h4 a5 h5 hc x0 x1 xo2 xo3 xo4 = k0_pay1 (k0_pay9 x1) (k0_pay11 x0 x1) xo2 := by
  unfold out0_B_2
  rw [View.read_writes_eq_canon _ _ _ (cover0_B_2 c i a1 h1 a2 h2 a3 h3 a4 h4 a5 h5 hc x0 x1 xo2 xo3 xo4)]
  unfold kernelRun0_B
  dsimp only
  sl_unfold_words
  rw [View.canon_unit_zero hz2]
  simp only [View.readAt_eq_ld, h1.read_unread, h2.read_unread, h3.read_unread, h4.read_unread, h5.read_unread,
    View.ld_unit_zero (S := S8x2000x5) hz3, View.ld_unit_zero (S := S8x2000) hz2]

/-- A later point leaves `old + mask` in the mask block. -/
theorem later_3 (c : Dev nD) (i : grid0.Coords)
    (a1 : Memref sig .tc .vmem S8x2000x5 .f32) (h1 : a1.IsWhole) (a2 : Memref sig .tc .vmem S8x2000x5 .f32) (h2 : a2.IsWhole)
    (a3 : Memref sig .tc .vmem S8x2000 .f32) (h3 : a3.IsWhole) (a4 : Memref sig .tc .vmem S8x2000 .f32) (h4 : a4.IsWhole)
    (a5 : Memref sig .tc .vmem S8x2000 .f32) (h5 : a5.IsWhole) (hc : ¬cond0_0 i)
    (x0 x1 : Vec F S8x2000x5 .f32) (xo2 xo3 xo4 : Vec F S8x2000 .f32) :
    out0_B_3 c i a1 h1 a2 h2 a3 h3 a4 h4 a5 h5 hc x0 x1 xo2 xo3 xo4 = k0_pay2 (k0_pay9 x1) xo3 := by
  unfold out0_B_3
  rw [View.read_writes_eq_canon _ _ _ (cover0_B_3 c i a1 h1 a2 h2 a3 h3 a4 h4 a5 h5 hc x0 x1 xo2 xo3 xo4)]
  unfold kernelRun0_B
  dsimp only
  sl_unfold_words
  rw [View.canon_unit_zero hz2]
  simp only [View.readAt_eq_ld, h1.read_unread, h2.read_unread, h3.read_unread, h4.read_unread, h5.read_unread,
    View.ld_unit_zero (S := S8x2000x5) hz3, View.ld_unit_zero (S := S8x2000) hz2]

/-- A later point leaves `old + sq` in the squared-error block. -/
theorem later_4 (c : Dev nD) (i : grid0.Coords)
    (a1 : Memref sig .tc .vmem S8x2000x5 .f32) (h1 : a1.IsWhole) (a2 : Memref sig .tc .vmem S8x2000x5 .f32) (h2 : a2.IsWhole)
    (a3 : Memref sig .tc .vmem S8x2000 .f32) (h3 : a3.IsWhole) (a4 : Memref sig .tc .vmem S8x2000 .f32) (h4 : a4.IsWhole)
    (a5 : Memref sig .tc .vmem S8x2000 .f32) (h5 : a5.IsWhole) (hc : ¬cond0_0 i)
    (x0 x1 : Vec F S8x2000x5 .f32) (xo2 xo3 xo4 : Vec F S8x2000 .f32) :
    out0_B_4 c i a1 h1 a2 h2 a3 h3 a4 h4 a5 h5 hc x0 x1 xo2 xo3 xo4 = k0_pay3 (k0_pay10 x0 x1) xo4 := by
  unfold out0_B_4
  rw [View.read_writes_eq_canon _ _ _ (cover0_B_4 c i a1 h1 a2 h2 a3 h3 a4 h4 a5 h5 hc x0 x1 xo2 xo3 xo4)]
  unfold kernelRun0_B
  dsimp only
  sl_unfold_words
  rw [View.canon_unit_zero hz2]
  simp only [View.readAt_eq_ld, h1.read_unread, h2.read_unread, h3.read_unread, h4.read_unread, h5.read_unread,
    View.ld_unit_zero (S := S8x2000x5) hz3, View.ld_unit_zero (S := S8x2000) hz2]

/-- The first point leaves `0 + mask · box` in the masked-box-error block: the zeros it stored, read back, plus its term. -/
theorem first_2 (c : Dev nD) (i : grid0.Coords)
    (a1 : Memref sig .tc .vmem S8x2000x5 .f32) (h1 : a1.IsWhole) (a2 : Memref sig .tc .vmem S8x2000x5 .f32) (h2 : a2.IsWhole)
    (a3 : Memref sig .tc .vmem S8x2000 .f32) (h3 : a3.IsWhole) (a4 : Memref sig .tc .vmem S8x2000 .f32) (h4 : a4.IsWhole)
    (a5 : Memref sig .tc .vmem S8x2000 .f32) (h5 : a5.IsWhole) (hc : cond0_0 i)
    (x0 x1 : Vec F S8x2000x5 .f32) :
    out0_A_2 c i a1 h1 a2 h2 a3 h3 a4 h4 a5 h5 hc x0 x1 = k0_pay1 (k0_pay9 x1) (k0_pay11 x0 x1) (k0_pay4 (F := F)) := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_cons_unit_zero (S := S8x2000) hz2, View.readCov_unit_zero (S := S8x2000) _ hz2]
  simp only [View.readAt_eq_ld, h1.read_unread, h2.read_unread,
    View.ld_unit_zero (S := S8x2000x5) hz3, View.ld_unit_zero (S := S8x2000) hz2]

/-- The first point leaves `0 + mask` in the mask block. -/
theorem first_3 (c : Dev nD) (i : grid0.Coords)
    (a1 : Memref sig .tc .vmem S8x2000x5 .f32) (h1 : a1.IsWhole) (a2 : Memref sig .tc .vmem S8x2000x5 .f32) (h2 : a2.IsWhole)
    (a3 : Memref sig .tc .vmem S8x2000 .f32) (h3 : a3.IsWhole) (a4 : Memref sig .tc .vmem S8x2000 .f32) (h4 : a4.IsWhole)
    (a5 : Memref sig .tc .vmem S8x2000 .f32) (h5 : a5.IsWhole) (hc : cond0_0 i)
    (x0 x1 : Vec F S8x2000x5 .f32) :
    out0_A_3 c i a1 h1 a2 h2 a3 h3 a4 h4 a5 h5 hc x0 x1 = k0_pay2 (k0_pay9 x1) (k0_pay5 (F := F)) := by
  unfold out0_A_3
  rw [View.read_writes_eq_canon _ _ _ (cover0_A_3 c i a1 h1 a2 h2 a3 h3 a4 h4 a5 h5 hc x0 x1)]
  unfold kernelRun0_A
  dsimp only
  sl_unfold_words
  rw [View.canon_cons_unit_zero (S := S8x2000) hz2, View.readCov_unit_zero (S := S8x2000) _ hz2]
  simp only [View.readAt_eq_ld, h1.read_unread, h2.read_unread,
    View.ld_unit_zero (S := S8x2000x5) hz3, View.ld_unit_zero (S := S8x2000) hz2]

/-- The first point leaves `0 + sq` in the squared-error block. -/
theorem first_4 (c : Dev nD) (i : grid0.Coords)
    (a1 : Memref sig .tc .vmem S8x2000x5 .f32) (h1 : a1.IsWhole) (a2 : Memref sig .tc .vmem S8x2000x5 .f32) (h2 : a2.IsWhole)
    (a3 : Memref sig .tc .vmem S8x2000 .f32) (h3 : a3.IsWhole) (a4 : Memref sig .tc .vmem S8x2000 .f32) (h4 : a4.IsWhole)
    (a5 : Memref sig .tc .vmem S8x2000 .f32) (h5 : a5.IsWhole) (hc : cond0_0 i)
    (x0 x1 : Vec F S8x2000x5 .f32) :
    out0_A_4 c i a1 h1 a2 h2 a3 h3 a4 h4 a5 h5 hc x0 x1 = k0_pay3 (k0_pay10 x0 x1) (k0_pay6 (F := F)) := by
  unfold out0_A_4
  rw [View.read_writes_eq_canon _ _ _ (cover0_A_4 c i a1 h1 a2 h2 a3 h3 a4 h4 a5 h5 hc x0 x1)]
  unfold kernelRun0_A
  dsimp only
  sl_unfold_words
  rw [View.canon_cons_unit_zero (S := S8x2000) hz2, View.readCov_unit_zero (S := S8x2000) _ hz2]
  simp only [View.readAt_eq_ld, h1.read_unread, h2.read_unread,
    View.ld_unit_zero (S := S8x2000x5) hz3, View.ld_unit_zero (S := S8x2000) hz2]

end Cert.KernelIdeal.Acc

end
-- ==== Proof.Loss.lean ====
/-
  The loss, row by row, and the regrouping of its row sums.

  Both programs view each input as an array of shape [4096, 2000, 5]: row b, anchor g, five lanes. Lane 0 carries
  the class score (in the first array) and the class target (in the second); lanes 1 to 4 carry box coordinates.
  Per row and anchor the loss uses three numbers:
      cls  = 1 if the target's lane 0 is positive, else 0
      sqe  = (sigmoid(score) - cls)²
      mbx  = cls · (mean over the four lanes of (coordinate difference)²)
  The mean over four lanes is written once as a division of the lane sum by 4 and once as the left-to-right sum
  times 1/4; on the extended reals these agree for every argument, since dividing by a nonzero real IS multiplying
  by its reciprocal there, and addition is commutative and associative with 0 neutral.

  The kernel sums rows in tiles: accumulator row r collects rows r, 8 + r, 16 + r, …, and the eight accumulator
  rows are summed afterwards. Every row index below 4096 is 8·s + r for exactly one tile s < 512 and one r < 8, so
  the two-level sum is the sum over all rows. This needs only a commutative monoid.
-/
import Idealize.ShloMosaic.PureOps.Ideal
import Idealize.ShloMosaic.PureOps.Ideal.Laws
import Idealize.ShloMosaic.Lib.IdealHost
import Idealize.ShloMosaic.Lib.ValueIdx

noncomputable section

open scoped BigOperators

namespace Cert.Loss

open Idealize.ShloMosaic Idealize.ShloMosaic.ValueIdx

/-! ## Two words as real numbers -/

/-- The word of `4.0` denotes the real 4. -/
theorem ofBits_four : Ideal.ofBits .f32 0x40800000#32 = ((4 : ℝ) : EReal) := by
  simp [Ideal.ofBits, Ideal.ieee, -EReal.coe_mul]; norm_num

/-- The word of `0.25` denotes the real 1/4. -/
theorem ofBits_quarter : Ideal.ofBits .f32 0x3E800000#32 = ((1 / 4 : ℝ) : EReal) := by
  simp [Ideal.ofBits, Ideal.ieee, -EReal.coe_mul]; norm_num

/-! ## The class target -/

/-- 1 on a positive extended real, 0 elsewhere. -/
def mask (t : EReal) : EReal := if 0 < t then 1 else 0

/-- The comparison's bit converted as an unsigned integer is the mask. -/
theorem mask_of_unsigned (t : Ideal .f32) :
    FloatOps.uitofp (F := Ideal) .f32 (FloatOps.cmpf (F := Ideal) .ogt t (Ideal.ofBits .f32 0x00000000#32)) = mask t := by
  rw [Ideal.ofBits_zero_f32]
  show (((BitVec.ofBool (decide ((0 : EReal) < t))).toNat : ℝ) : EReal) = mask t
  unfold mask
  by_cases h : (0 : EReal) < t <;> simp [h]

/-- The comparison's bit widened by zeros to 32 bits and converted as a signed integer is the mask too. -/
theorem mask_of_signed (t : Ideal .f32) :
    FloatOps.sitofp (F := Ideal) .f32 ((FloatOps.cmpf (F := Ideal) .ogt t (Ideal.ofBits .f32 0x00000000#32)).setWidth 32) = mask t := by
  rw [Ideal.ofBits_zero_f32]
  show ((((BitVec.ofBool (decide ((0 : EReal) < t))).setWidth 32).toInt : ℝ) : EReal) = mask t
  unfold mask
  by_cases h : (0 : EReal) < t <;> simp [h]

/-! ## The mean of four squares -/

/-- A quarter of the left-to-right sum of four squares. -/
def box (d1 d2 d3 d4 : EReal) : EReal := (d1 * d1 + d2 * d2 + d3 * d3 + d4 * d4) * ((1 / 4 : ℝ) : EReal)

/-- The sum of the four squares started from zero and divided by 4 is that quarter. -/
theorem box_of_mean (d : Fin 4 → EReal) :
    Ideal.div (Ideal.ofBits .f32 0x00000000#32 + ∑ k : Fin 4, d k * d k) (Ideal.ofBits .f32 0x40800000#32)
      = box (d 0) (d 1) (d 2) (d 3) := by
  rw [Ideal.ofBits_zero_f32, zero_add, ofBits_four, Ideal.div_coe (by norm_num : (4 : ℝ) ≠ 0), Fin.sum_univ_four]
  rfl

/-! ## The three numbers per row and anchor -/

/-- An input seen as rows × anchors × lanes. -/
abbrev Arr : Type := (⟨3, ![4096, 2000, 5]⟩ : Shape).Idx → EReal

/-- The class target of row `b`, anchor `g`. -/
def cls (Q : Arr) (b : Fin 4096) (g : Fin 2000) : EReal := mask (Q (ix3 b g 0))

/-- The squared error of the sigmoid of the class score against the class target. -/
def sqe (P Q : Arr) (b : Fin 4096) (g : Fin 2000) : EReal :=
  (Ideal.logistic (P (ix3 b g 0)) - cls Q b g) * (Ideal.logistic (P (ix3 b g 0)) - cls Q b g)

/-- The mean squared coordinate difference over lanes 1 to 4. -/
def bxe (P Q : Arr) (b : Fin 4096) (g : Fin 2000) : EReal :=
  box (P (ix3 b g 1) - Q (ix3 b g 1)) (P (ix3 b g 2) - Q (ix3 b g 2)) (P (ix3 b g 3) - Q (ix3 b g 3))
    (P (ix3 b g 4) - Q (ix3 b g 4))

/-- The box error where the class target is 1, zero where it is 0. -/
def mbx (P Q : Arr) (b : Fin 4096) (g : Fin 2000) : EReal := cls Q b g * bxe P Q b g

/-! ## Row sums in tiles of eight -/

/-- A function of the 4096 rows continued by zero to every natural. -/
def pad {M : Type*} [Zero M] (f : Fin 4096 → M) (b : ℕ) : M := if h : b < 4096 then f ⟨b, h⟩ else 0

theorem pad_of_lt {M : Type*} [Zero M] (f : Fin 4096 → M) (b : ℕ) (h : b < 4096) : pad f b = f ⟨b, h⟩ := dif_pos h

/-- A sum over `T · K` consecutive naturals is the sum over `K` tiles of the sums over each tile's `T`. -/
theorem sum_tiles {M : Type*} [AddCommMonoid M] (F : ℕ → M) (T : ℕ) :
    ∀ K : ℕ, ∑ b ∈ Finset.range (T * K), F b = ∑ s ∈ Finset.range K, ∑ r ∈ Finset.range T, F (T * s + r)
  | 0 => by simp
  | K + 1 => by rw [Nat.mul_succ, Finset.sum_range_add, sum_tiles F T K, Finset.sum_range_succ]

/-- Summing, for each of eight residues, over the 512 tiles gives the sum over all 4096 rows. -/
theorem sum_residues {M : Type*} [AddCommMonoid M] (f : Fin 4096 → M) :
    ∑ r : Fin 8, ∑ s ∈ Finset.range 512, pad f (8 * s + r.val) = ∑ b : Fin 4096, f b := by
  have e : ∑ b : Fin 4096, f b = ∑ b ∈ Finset.range 4096, pad f b := by
    rw [Finset.sum_range]
    exact Finset.sum_congr rfl fun b _ => (pad_of_lt f b.val b.isLt).symm
  calc ∑ r : Fin 8, ∑ s ∈ Finset.range 512, pad f (8 * s + r.val)
      = ∑ r ∈ Finset.range 8, ∑ s ∈ Finset.range 512, pad f (8 * s + r) :=
        (Finset.sum_range (fun r => ∑ s ∈ Finset.range 512, pad f (8 * s + r))).symm
    _ = ∑ s ∈ Finset.range 512, ∑ r ∈ Finset.range 8, pad f (8 * s + r) := Finset.sum_comm
    _ = ∑ b ∈ Finset.range (8 * 512), pad f b := (sum_tiles (pad f) 8 512).symm
    _ = ∑ b : Fin 4096, f b := e.symm

end Cert.Loss

end
-- ==== Proof.Payload.lean ====
/-
  The body's arithmetic, one entry at a time, on the extended reals.

  A point's two input blocks have shape [8, 2000, 5]. The body takes lane k of a block by slicing that lane out and
  dropping the unit axis, so entry (r, g) of the result is the block's entry (r, g, k). Read at (r, g):
      the mask term    is  mask(second block at (r, g, 0));
      the square term  is  (sigmoid(first block at (r, g, 0)) - mask)²;
      the box term     is  a quarter of the sum over lanes 1..4 of (first - second)².
  Each accumulator's new entry is its old entry plus the point's term (for the box accumulator, mask · box), and
  the block of zeros stored at the first point reads 0.
-/
import proofs.«109152_j14594298871844_2_alg».proof.Proof.Gen.KernelIdeal.Skeleton
import proofs.«109152_j14594298871844_2_alg».proof.Proof.Loss
import Idealize.ShloMosaic.Lib.Pipeline.Value
import Idealize.ShloMosaic.Lib.ValueIdx

noncomputable section

open Idealize.ShloMosaic Idealize.ShloMosaic.ValueIdx

namespace Cert.KernelIdeal.Acc

open Cert.KernelIdeal Cert.KernelIdeal.Gen Cert.Loss

/-! ## Taking one lane of a block -/

/-- Dropping the unit lane axis: entry (r, g) of the result is entry (r, g, 0) of the operand. -/
theorem squeeze_at {α : Type} (v : S8x2000x1.Idx → α) (h : S8x2000x1.ShapeCasts S8x2000) (r : Fin 8) (g : Fin 2000) :
    shapeCast S8x2000 v h (ix2 r g) = v (ix3 r g 0) :=
  shapeCast_apply v h (ix2 r g) (ix3 r g 0)
    (by rewrite [Shape.rowMajor_val_three, Shape.rowMajor_val_two]
        show (r.val * 2000 + g.val) * 1 + 0 = r.val * 2000 + g.val; omega)

/-- Slicing lane `o` out of a block: entry (r, g, 0) of the slice is entry (r, g, o) of the block. -/
theorem lane_at {α : Type} (o : ℕ) (ho : o < 5) (v : S8x2000x5.Idx → α) (h : S8x2000x5.Slices ![0, 0, o] S8x2000x1)
    (r : Fin 8) (g : Fin 2000) :
    extractStridedSlice S8x2000x1 ![0, 0, o] v h (ix3 r g 0) = v (ix3 r g ⟨o, ho⟩) :=
  extractStridedSlice_apply ![0, 0, o] v h (ix3 r g 0) (ix3 r g ⟨o, ho⟩) (fun a => match a with
    | ⟨0, _⟩ => by show r.val = 0 + r.val; omega
    | ⟨1, _⟩ => by show g.val = 0 + g.val; omega
    | ⟨2, _⟩ => by show o = o + 0; omega)

/-- The sigmoid is applied entry by entry. -/
theorem logistic_at {s : Shape} (v : FVec Ideal s .f32) (i : s.Idx) : logistic v i = Ideal.logistic (v i) := rfl

/-! ## A point's three terms at (r, g) -/

/-- The mask term. -/
theorem mask_at (x1 : Vec Ideal S8x2000x5 .f32) (r : Fin 8) (g : Fin 2000) :
    k0_pay9 (F := Ideal) x1 (ix2 r g) = mask (x1 (ix3 r g 0)) := by
  unfold k0_pay9 k0_pay8
  rw [sitofp_apply, extui_apply, cmpf_apply, broadcast_apply, squeeze_at, lane_at 0 (by omega), shapeCast_self]
  exact mask_of_signed _

/-- The square term. -/
theorem square_at (x0 x1 : Vec Ideal S8x2000x5 .f32) (r : Fin 8) (g : Fin 2000) :
    k0_pay10 (F := Ideal) x0 x1 (ix2 r g)
      = (Ideal.logistic (x0 (ix3 r g 0)) - mask (x1 (ix3 r g 0))) * (Ideal.logistic (x0 (ix3 r g 0)) - mask (x1 (ix3 r g 0))) := by
  unfold k0_pay10 k0_pay7
  rw [mulf_apply, subf_apply, mask_at, logistic_at, squeeze_at, lane_at 0 (by omega), shapeCast_self]
  rfl

/-- The box term. -/
theorem box_at (x0 x1 : Vec Ideal S8x2000x5 .f32) (r : Fin 8) (g : Fin 2000) :
    k0_pay11 (F := Ideal) x0 x1 (ix2 r g)
      = box (x0 (ix3 r g 1) - x1 (ix3 r g 1)) (x0 (ix3 r g 2) - x1 (ix3 r g 2)) (x0 (ix3 r g 3) - x1 (ix3 r g 3))
          (x0 (ix3 r g 4) - x1 (ix3 r g 4)) := by
  unfold k0_pay11 k0_pay7 k0_pay8
  simp only [mulf_apply, addf_apply, subf_apply, broadcast_apply, squeeze_at]
  rw [lane_at 1 (by omega), lane_at 1 (by omega), lane_at 2 (by omega), lane_at 2 (by omega),
    lane_at 3 (by omega), lane_at 3 (by omega), lane_at 4 (by omega), lane_at 4 (by omega)]
  simp only [shapeCast_self]
  rw [show (FloatOps.ofBits (F := Ideal) .f32 0x3E800000#32 : Ideal .f32) = ((1 / 4 : ℝ) : EReal) from ofBits_quarter]
  rfl

/-! ## The accumulation steps at an entry -/

/-- The box accumulator: old + mask · box. -/
theorem step_box_at (v14 v46 : FVec Ideal S8x2000 .f32) (old : Vec Ideal S8x2000 .f32) (j : S8x2000.Idx) :
    k0_pay1 (F := Ideal) v14 v46 old j = old j + v14 j * v46 j := by
  unfold k0_pay1
  rw [addf_apply, mulf_apply, shapeCast_self]

/-- The mask accumulator: old + mask. -/
theorem step_mask_at (v14 : FVec Ideal S8x2000 .f32) (old : Vec Ideal S8x2000 .f32) (j : S8x2000.Idx) :
    k0_pay2 (F := Ideal) v14 old j = old j + v14 j := by
  unfold k0_pay2
  rw [addf_apply, shapeCast_self]

/-- The square accumulator: old + sq. -/
theorem step_square_at (v17 : FVec Ideal S8x2000 .f32) (old : Vec Ideal S8x2000 .f32) (j : S8x2000.Idx) :
    k0_pay3 (F := Ideal) v17 old j = old j + v17 j := by
  unfold k0_pay3
  rw [addf_apply, shapeCast_self]

/-- The three blocks of zeros read 0. -/
theorem zeros_at (j : S8x2000.Idx) :
    k0_pay4 (F := Ideal) j = 0 ∧ k0_pay5 (F := Ideal) j = 0 ∧ k0_pay6 (F := Ideal) j = 0 :=
  ⟨Ideal.ofBits_zero_f32, Ideal.ofBits_zero_f32, Ideal.ofBits_zero_f32⟩

end Cert.KernelIdeal.Acc

end
-- ==== Proof.Blocks.lean ====
/-
  What a point's input blocks hold.

  Each input is re-laid by the host, before the region, from [4096, 10000] to [4096, 2000, 5]. The region then reads
  it in 512 blocks of eight consecutive rows: at point t the block index is (t, 0, 0), and a block's coordinate is
  always index × extent + offset inside the block, so entry (r, g, k) of the block at point t is entry
  (8t + r, g, k) of the re-laid array. This holds for every float instance.
-/
import proofs.«109152_j14594298871844_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Acc

open Cert.KernelIdeal Cert.KernelIdeal.Gen

variable {F : FTy → Type} [FloatOps F]
variable (m : (ℓ : Loc nD τ sig) → Buf (Elt F) ℓ)

/-- Window 0's block index at point `t` is (t, 0, 0). -/
theorem index_first : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)

/-- Entry (r, g, k) of the first input's block at point `t` is entry (8t + r, g, k) of the array the region finds. -/
theorem block_first (c : Dev nD) (t : Fin cfg0.N) (r : Fin 8) (g : Fin 2000) (k : Fin 5) (hb : 8 * t.val + r.val < 4096) :
    (iblk m c 0 t : Vec F S8x2000x5 .f32) (ix3 r g k)
      = (V m c main_call0_v0 : Vec F S4096x2000x5 .f32) (ix3 ⟨8 * t.val + r.val, hb⟩ g k) := by
  obtain ⟨i0, i1, i2⟩ := index_first t
  unfold iblk
  rw [View.read_apply]
  show V m c main_call0_v0 _ = V m c main_call0_v0 _
  congr 1
  funext a
  apply Fin.ext
  match a with
  | ⟨0, _⟩ => show win0_0.index t 0 * 8 + 1 * r.val = 8 * t.val + r.val; rw [i0]; omega
  | ⟨1, _⟩ => show win0_0.index t 1 * 2000 + 1 * g.val = g.val; rw [i1]; omega
  | ⟨2, _⟩ => show win0_0.index t 2 * 5 + 1 * k.val = k.val; rw [i2]; omega

/-- The array the region finds for the first input is the argument re-laid as rows × anchors × lanes. -/
theorem found_first (c : Dev nD) :
    (V m c main_call0_v0 : Vec F S4096x2000x5 .f32)
      = shapeCast S4096x2000x5 (m ((c.tc : Thread nD τ).loc main_arg0)) shapeCasts_S4096x10000_S4096x2000x5 := by
  show StableHlo.after hostOps0 (fun b => m (c, b)) (Proc.devRef .tc main_call0_v0) = _
  after_results
  rfl

/-- Window 1's block index at point `t` is (t, 0, 0). -/
theorem index_second : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)

/-- Entry (r, g, k) of the second input's block at point `t` is entry (8t + r, g, k) of the array the region finds. -/
theorem block_second (c : Dev nD) (t : Fin cfg0.N) (r : Fin 8) (g : Fin 2000) (k : Fin 5) (hb : 8 * t.val + r.val < 4096) :
    (iblk m c 1 t : Vec F S8x2000x5 .f32) (ix3 r g k)
      = (V m c main_call0_v1 : Vec F S4096x2000x5 .f32) (ix3 ⟨8 * t.val + r.val, hb⟩ g k) := by
  obtain ⟨i0, i1, i2⟩ := index_second t
  unfold iblk
  rw [View.read_apply]
  show V m c main_call0_v1 _ = V m c main_call0_v1 _
  congr 1
  funext a
  apply Fin.ext
  match a with
  | ⟨0, _⟩ => show win0_1.index t 0 * 8 + 1 * r.val = 8 * t.val + r.val; rw [i0]; omega
  | ⟨1, _⟩ => show win0_1.index t 1 * 2000 + 1 * g.val = g.val; rw [i1]; omega
  | ⟨2, _⟩ => show win0_1.index t 2 * 5 + 1 * k.val = k.val; rw [i2]; omega

/-- The array the region finds for the second input is the argument re-laid as rows × anchors × lanes. -/
theorem found_second (c : Dev nD) :
    (V m c main_call0_v1 : Vec F S4096x2000x5 .f32)
      = shapeCast S4096x2000x5 (m ((c.tc : Thread nD τ).loc main_arg1)) shapeCasts_S4096x10000_S4096x2000x5 := by
  show StableHlo.after hostOps0 (fun b => m (c, b)) (Proc.devRef .tc main_call0_v1) = _
  after_results
  rfl

end Cert.KernelIdeal.Acc

end
-- ==== Proof.Fold.lean ====
/-
  The three accumulators after the last grid point.

  The grid has 512 points. The first stores zeros and adds its term; each later point adds its term to what the point
  before left. So after the last point each accumulator holds, at entry (r, g), zero plus the sum over the points
  s = 0 … 511 of point s's term there; and point s's term at (r, g) is the row function at row 8s + r, anchor g, since
  point s reads rows 8s … 8s + 7 of the two re-laid inputs. The fold over the points is read by the library's
  statement for an output that is reset at the first point of a run and added into afterwards.
-/
import proofs.«109152_j14594298871844_2_alg».proof.Proof.Pieces
import proofs.«109152_j14594298871844_2_alg».proof.Proof.Payload
import proofs.«109152_j14594298871844_2_alg».proof.Proof.Blocks

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.Loss

variable (m : (ℓ : Loc nD τ sig) → Buf (Elt Ideal) ℓ)

/-- The first input as the region finds it: rows × anchors × lanes. -/
abbrev scores (c : Dev nD) : Arr := (V m c main_call0_v0 : Vec Ideal S4096x2000x5 .f32)
/-- The second input as the region finds it. -/
abbrev targets (c : Dev nD) : Arr := (V m c main_call0_v1 : Vec Ideal S4096x2000x5 .f32)

/-- Point `t` reads rows below 4096. -/
theorem rows_lt (t : Fin cfg0.N) (r : Fin 8) : 8 * t.val + r.val < 4096 := by
  have h1 := t.isLt
  have hN : cfg0.N = 512 := N_0
  have h2 := r.isLt
  omega

/-- Entry `j`'s addend of point `n` to the masked box error accumulator: the row function at row 8n + j₀, anchor j₁
    (zero past the last row, where no point reads). -/
def addBox (c : Dev nD) (n : ℕ) (j : S8x2000.Idx) : EReal :=
  pad (fun b => mbx (scores m c) (targets m c) b (j 1)) (8 * n + (j 0).val)

/-- Point `t`'s masked box term at entry `j` is its addend. -/
theorem box_point (c : Dev nD) (t : Fin cfg0.N) (j : S8x2000.Idx) :
    k0_pay9 (F := Ideal) (iblk m c 1 t) j * k0_pay11 (F := Ideal) (iblk m c 0 t) (iblk m c 1 t) j = addBox m c t.val j := by
  obtain ⟨r, g, rfl⟩ : ∃ (r : Fin 8) (g : Fin 2000), j = ix2 r g := ⟨j 0, j 1, eq_ix2 j⟩
  have hb := rows_lt t r
  rw [mask_at (iblk m c 1 t) r g, box_at (iblk m c 0 t) (iblk m c 1 t) r g,
    block_second m c t r g 0 hb, block_first m c t r g 1 hb, block_second m c t r g 1 hb,
    block_first m c t r g 2 hb, block_second m c t r g 2 hb, block_first m c t r g 3 hb, block_second m c t r g 3 hb,
    block_first m c t r g 4 hb, block_second m c t r g 4 hb]
  unfold addBox
  rw [pad_of_lt _ _ hb]
  rfl

/-- What the first point of a run leaves in the masked box error accumulator: the stored zeros plus the point's term. -/
def boxStart (c : Dev nD) (n : ℕ) (hn : n < cfg0.N) : Vec Ideal S8x2000 .f32 :=
  k0_pay1 (k0_pay9 (iblk m c 1 ⟨n, hn⟩)) (k0_pay11 (iblk m c 0 ⟨n, hn⟩) (iblk m c 1 ⟨n, hn⟩)) (k0_pay4 (F := Ideal))

/-- What a later point leaves there, from what the point before left. -/
def boxStep (c : Dev nD) (n : ℕ) (hn : n < cfg0.N) (old : Vec Ideal S8x2000 .f32) : Vec Ideal S8x2000 .f32 :=
  k0_pay1 (k0_pay9 (iblk m c 1 ⟨n, hn⟩)) (k0_pay11 (iblk m c 0 ⟨n, hn⟩) (iblk m c 1 ⟨n, hn⟩)) old

/-- At the first point the masked box error accumulator is the start value. -/
theorem box_first (c : Dev nD) (n : ℕ) (hn : n < cfg0.N) (h0 : n % 512 = 0) :
    (outsAt0 m c n hn).1 = boxStart m c n hn := by
  unfold boxStart
  rw [outsAt0_A m c ⟨n, hn⟩ h0]
  dsimp only
  exact first_2 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) ((hcond0_0 ⟨n, hn⟩).mpr h0) (iblk m c 0 ⟨n, hn⟩) (iblk m c 1 ⟨n, hn⟩)

/-- At a later point it is the step applied to what the point before left. -/
theorem box_later (c : Dev nD) (n : ℕ) (hn : n + 1 < cfg0.N) (hne : ¬(n + 1) % 512 = 0) :
    (outsAt0 m c (n + 1) hn).1 = boxStep m c (n + 1) hn (outsAt0 m c n (Nat.lt_of_succ_lt hn)).1 := by
  unfold boxStep
  rw [outsAt0_B m c ⟨n + 1, hn⟩ hne]
  dsimp only
  exact later_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => hne ((hcond0_0 ⟨n + 1, hn⟩).mp h)) (iblk m c 0 ⟨n + 1, hn⟩) (iblk m c 1 ⟨n + 1, hn⟩)
    (outsAt0 m c n (Nat.lt_of_succ_lt hn)).1 (outsAt0 m c n (Nat.lt_of_succ_lt hn)).2.1 (outsAt0 m c n (Nat.lt_of_succ_lt hn)).2.2

/-- The start value at an entry: zero plus the point's addend. -/
theorem boxStart_at (c : Dev nD) (n : ℕ) (hn : n < cfg0.N) (i : S8x2000.Idx) :
    boxStart m c n hn i = 0 + addBox m c n i := by
  unfold boxStart
  rw [step_box_at (k0_pay9 (iblk m c 1 ⟨n, hn⟩)) (k0_pay11 (iblk m c 0 ⟨n, hn⟩) (iblk m c 1 ⟨n, hn⟩)) (k0_pay4 (F := Ideal)) i, (zeros_at i).1, box_point m c ⟨n, hn⟩ i]

/-- The step at an entry: the old entry plus the point's addend. -/
theorem boxStep_at (c : Dev nD) (n : ℕ) (hn : n < cfg0.N) (old : Vec Ideal S8x2000 .f32) (i : S8x2000.Idx) :
    boxStep m c n hn old i = old i + addBox m c n i := by
  unfold boxStep
  rw [step_box_at (k0_pay9 (iblk m c 1 ⟨n, hn⟩)) (k0_pay11 (iblk m c 0 ⟨n, hn⟩) (iblk m c 1 ⟨n, hn⟩)) old i, box_point m c ⟨n, hn⟩ i]

/-- After point `n` the masked box error accumulator holds, at every entry, the sum of the addends of points 0 … n. Stated for a
    point named by a variable: the closed form is a fold over the points, never an evaluation at one. -/
theorem box_upto (c : Dev nD) (n : ℕ) (hn : n < cfg0.N) (j : S8x2000.Idx) :
    (outsAt0 m c n hn).1 j = 0 + ∑ s ∈ Finset.range (n + 1), addBox m c s j := by
  have hN : cfg0.N = 512 := N_0
  have hn' : 512 * 0 + n < cfg0.N := by omega
  have e := Pipeline.eq_accAt (N := cfg0.N) (fun n hn => (outsAt0 m c n hn).1) 512
    (boxStart m c) (boxStep m c) (box_first m c) (box_later m c) 0 n (by omega) hn'
  have s := Pipeline.accAt_add_apply (N := cfg0.N) (boxStart m c) (boxStep m c)
    (fun _ => (0 : EReal)) (addBox m c) (512 * 0) n
    (fun hb i => boxStart_at m c (512 * 0) hb i)
    (fun k hk old i _ _ => boxStep_at m c k hk old i)
    n le_rfl hn' j
  have t := (congrFun e j).trans s
  simp only [Nat.mul_zero, Nat.zero_add] at t
  exact t

/-- Entry `j`'s addend of point `n` to the mask accumulator: the row function at row 8n + j₀, anchor j₁
    (zero past the last row, where no point reads). -/
def addMask (c : Dev nD) (n : ℕ) (j : S8x2000.Idx) : EReal :=
  pad (fun b => cls (targets m c) b (j 1)) (8 * n + (j 0).val)

/-- Point `t`'s mask term at entry `j` is its addend. -/
theorem mask_point (c : Dev nD) (t : Fin cfg0.N) (j : S8x2000.Idx) :
    k0_pay9 (F := Ideal) (iblk m c 1 t) j = addMask m c t.val j := by
  obtain ⟨r, g, rfl⟩ : ∃ (r : Fin 8) (g : Fin 2000), j = ix2 r g := ⟨j 0, j 1, eq_ix2 j⟩
  have hb := rows_lt t r
  rw [mask_at (iblk m c 1 t) r g, block_second m c t r g 0 hb]
  unfold addMask
  rw [pad_of_lt _ _ hb]
  rfl

/-- What the first point of a run leaves in the mask accumulator: the stored zeros plus the point's term. -/
def maskStart (c : Dev nD) (n : ℕ) (hn : n < cfg0.N) : Vec Ideal S8x2000 .f32 :=
  k0_pay2 (k0_pay9 (iblk m c 1 ⟨n, hn⟩)) (k0_pay5 (F := Ideal))

/-- What a later point leaves there, from what the point before left. -/
def maskStep (c : Dev nD) (n : ℕ) (hn : n < cfg0.N) (old : Vec Ideal S8x2000 .f32) : Vec Ideal S8x2000 .f32 :=
  k0_pay2 (k0_pay9 (iblk m c 1 ⟨n, hn⟩)) old

/-- At the first point the mask accumulator is the start value. -/
theorem mask_first (c : Dev nD) (n : ℕ) (hn : n < cfg0.N) (h0 : n % 512 = 0) :
    (outsAt0 m c n hn).2.1 = maskStart m c n hn := by
  unfold maskStart
  rw [outsAt0_A m c ⟨n, hn⟩ h0]
  dsimp only
  exact first_3 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) ((hcond0_0 ⟨n, hn⟩).mpr h0) (iblk m c 0 ⟨n, hn⟩) (iblk m c 1 ⟨n, hn⟩)

/-- At a later point it is the step applied to what the point before left. -/
theorem mask_later (c : Dev nD) (n : ℕ) (hn : n + 1 < cfg0.N) (hne : ¬(n + 1) % 512 = 0) :
    (outsAt0 m c (n + 1) hn).2.1 = maskStep m c (n + 1) hn (outsAt0 m c n (Nat.lt_of_succ_lt hn)).2.1 := by
  unfold maskStep
  rw [outsAt0_B m c ⟨n + 1, hn⟩ hne]
  dsimp only
  exact later_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => hne ((hcond0_0 ⟨n + 1, hn⟩).mp h)) (iblk m c 0 ⟨n + 1, hn⟩) (iblk m c 1 ⟨n + 1, hn⟩)
    (outsAt0 m c n (Nat.lt_of_succ_lt hn)).1 (outsAt0 m c n (Nat.lt_of_succ_lt hn)).2.1 (outsAt0 m c n (Nat.lt_of_succ_lt hn)).2.2

/-- The start value at an entry: zero plus the point's addend. -/
theorem maskStart_at (c : Dev nD) (n : ℕ) (hn : n < cfg0.N) (i : S8x2000.Idx) :
    maskStart m c n hn i = 0 + addMask m c n i := by
  unfold maskStart
  rw [step_mask_at (k0_pay9 (iblk m c 1 ⟨n, hn⟩)) (k0_pay5 (F := Ideal)) i, (zeros_at i).2.1, mask_point m c ⟨n, hn⟩ i]

/-- The step at an entry: the old entry plus the point's addend. -/
theorem maskStep_at (c : Dev nD) (n : ℕ) (hn : n < cfg0.N) (old : Vec Ideal S8x2000 .f32) (i : S8x2000.Idx) :
    maskStep m c n hn old i = old i + addMask m c n i := by
  unfold maskStep
  rw [step_mask_at (k0_pay9 (iblk m c 1 ⟨n, hn⟩)) old i, mask_point m c ⟨n, hn⟩ i]

/-- After point `n` the mask accumulator holds, at every entry, the sum of the addends of points 0 … n. Stated for a
    point named by a variable: the closed form is a fold over the points, never an evaluation at one. -/
theorem mask_upto (c : Dev nD) (n : ℕ) (hn : n < cfg0.N) (j : S8x2000.Idx) :
    (outsAt0 m c n hn).2.1 j = 0 + ∑ s ∈ Finset.range (n + 1), addMask m c s j := by
  have hN : cfg0.N = 512 := N_0
  have hn' : 512 * 0 + n < cfg0.N := by omega
  have e := Pipeline.eq_accAt (N := cfg0.N) (fun n hn => (outsAt0 m c n hn).2.1) 512
    (maskStart m c) (maskStep m c) (mask_first m c) (mask_later m c) 0 n (by omega) hn'
  have s := Pipeline.accAt_add_apply (N := cfg0.N) (maskStart m c) (maskStep m c)
    (fun _ => (0 : EReal)) (addMask m c) (512 * 0) n
    (fun hb i => maskStart_at m c (512 * 0) hb i)
    (fun k hk old i _ _ => maskStep_at m c k hk old i)
    n le_rfl hn' j
  have t := (congrFun e j).trans s
  simp only [Nat.mul_zero, Nat.zero_add] at t
  exact t

/-- Entry `j`'s addend of point `n` to the squared error accumulator: the row function at row 8n + j₀, anchor j₁
    (zero past the last row, where no point reads). -/
def addSquare (c : Dev nD) (n : ℕ) (j : S8x2000.Idx) : EReal :=
  pad (fun b => sqe (scores m c) (targets m c) b (j 1)) (8 * n + (j 0).val)

/-- Point `t`'s square term at entry `j` is its addend. -/
theorem square_point (c : Dev nD) (t : Fin cfg0.N) (j : S8x2000.Idx) :
    k0_pay10 (F := Ideal) (iblk m c 0 t) (iblk m c 1 t) j = addSquare m c t.val j := by
  obtain ⟨r, g, rfl⟩ : ∃ (r : Fin 8) (g : Fin 2000), j = ix2 r g := ⟨j 0, j 1, eq_ix2 j⟩
  have hb := rows_lt t r
  rw [square_at (iblk m c 0 t) (iblk m c 1 t) r g, block_first m c t r g 0 hb, block_second m c t r g 0 hb]
  unfold addSquare
  rw [pad_of_lt _ _ hb]
  rfl

/-- What the first point of a run leaves in the squared error accumulator: the stored zeros plus the point's term. -/
def squareStart (c : Dev nD) (n : ℕ) (hn : n < cfg0.N) : Vec Ideal S8x2000 .f32 :=
  k0_pay3 (k0_pay10 (iblk m c 0 ⟨n, hn⟩) (iblk m c 1 ⟨n, hn⟩)) (k0_pay6 (F := Ideal))

/-- What a later point leaves there, from what the point before left. -/
def squareStep (c : Dev nD) (n : ℕ) (hn : n < cfg0.N) (old : Vec Ideal S8x2000 .f32) : Vec Ideal S8x2000 .f32 :=
  k0_pay3 (k0_pay10 (iblk m c 0 ⟨n, hn⟩) (iblk m c 1 ⟨n, hn⟩)) old

/-- At the first point the squared error accumulator is the start value. -/
theorem square_first (c : Dev nD) (n : ℕ) (hn : n < cfg0.N) (h0 : n % 512 = 0) :
    (outsAt0 m c n hn).2.2 = squareStart m c n hn := by
  unfold squareStart
  rw [outsAt0_A m c ⟨n, hn⟩ h0]
  dsimp only
  exact first_4 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) ((hcond0_0 ⟨n, hn⟩).mpr h0) (iblk m c 0 ⟨n, hn⟩) (iblk m c 1 ⟨n, hn⟩)

/-- At a later point it is the step applied to what the point before left. -/
theorem square_later (c : Dev nD) (n : ℕ) (hn : n + 1 < cfg0.N) (hne : ¬(n + 1) % 512 = 0) :
    (outsAt0 m c (n + 1) hn).2.2 = squareStep m c (n + 1) hn (outsAt0 m c n (Nat.lt_of_succ_lt hn)).2.2 := by
  unfold squareStep
  rw [outsAt0_B m c ⟨n + 1, hn⟩ hne]
  dsimp only
  exact later_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => hne ((hcond0_0 ⟨n + 1, hn⟩).mp h)) (iblk m c 0 ⟨n + 1, hn⟩) (iblk m c 1 ⟨n + 1, hn⟩)
    (outsAt0 m c n (Nat.lt_of_succ_lt hn)).1 (outsAt0 m c n (Nat.lt_of_succ_lt hn)).2.1 (outsAt0 m c n (Nat.lt_of_succ_lt hn)).2.2

/-- The start value at an entry: zero plus the point's addend. -/
theorem squareStart_at (c : Dev nD) (n : ℕ) (hn : n < cfg0.N) (i : S8x2000.Idx) :
    squareStart m c n hn i = 0 + addSquare m c n i := by
  unfold squareStart
  rw [step_square_at (k0_pay10 (iblk m c 0 ⟨n, hn⟩) (iblk m c 1 ⟨n, hn⟩)) (k0_pay6 (F := Ideal)) i, (zeros_at i).2.2, square_point m c ⟨n, hn⟩ i]

/-- The step at an entry: the old entry plus the point's addend. -/
theorem squareStep_at (c : Dev nD) (n : ℕ) (hn : n < cfg0.N) (old : Vec Ideal S8x2000 .f32) (i : S8x2000.Idx) :
    squareStep m c n hn old i = old i + addSquare m c n i := by
  unfold squareStep
  rw [step_square_at (k0_pay10 (iblk m c 0 ⟨n, hn⟩) (iblk m c 1 ⟨n, hn⟩)) old i, square_point m c ⟨n, hn⟩ i]

/-- After point `n` the squared error accumulator holds, at every entry, the sum of the addends of points 0 … n. Stated for a
    point named by a variable: the closed form is a fold over the points, never an evaluation at one. -/
theorem square_upto (c : Dev nD) (n : ℕ) (hn : n < cfg0.N) (j : S8x2000.Idx) :
    (outsAt0 m c n hn).2.2 j = 0 + ∑ s ∈ Finset.range (n + 1), addSquare m c s j := by
  have hN : cfg0.N = 512 := N_0
  have hn' : 512 * 0 + n < cfg0.N := by omega
  have e := Pipeline.eq_accAt (N := cfg0.N) (fun n hn => (outsAt0 m c n hn).2.2) 512
    (squareStart m c) (squareStep m c) (square_first m c) (square_later m c) 0 n (by omega) hn'
  have s := Pipeline.accAt_add_apply (N := cfg0.N) (squareStart m c) (squareStep m c)
    (fun _ => (0 : EReal)) (addSquare m c) (512 * 0) n
    (fun hb i => squareStart_at m c (512 * 0) hb i)
    (fun k hk old i _ _ => squareStep_at m c k hk old i)
    n le_rfl hn' j
  have t := (congrFun e j).trans s
  simp only [Nat.mul_zero, Nat.zero_add] at t
  exact t

end Cert.KernelIdeal.Acc

end
-- ==== Proof.Outputs.lean ====
/-
  The three output arrays after the run.

  Each accumulator is an [8, 2000] array read and written through one block of its own shape whose index never moves,
  and it is written back once, after the last of the 512 points. So the array ends holding what the last point left
  in the accumulator. This holds for every float instance.
-/
import proofs.«109152_j14594298871844_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

theorem last_lt : 511 < cfg0.N := by rw [show cfg0.N = 512 from N_0]; decide

/-- The last grid point. -/
abbrev last : Fin cfg0.N := ⟨511, last_lt⟩

/-- The three outputs' block index is (0, 0) at every point. -/
theorem index_outs : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0))

/-- A point numbered 511 is the last point. -/
theorem at_last (c : Dev nD) (n : ℕ) (hn : n < cfg0.N) (e : n = 511) : outsAt0 m c n hn = outsAt0 m c 511 last_lt := by
  subst e; rfl

/-- The one write-back of the box accumulator, at the last point, writes what that point left: the block at index
    (0, 0) of an array of the block's own shape is the whole array. -/
theorem flushed_box (c : Dev nD) (t : Fin cfg0.N) (hf : (cfg0.win 2).flush t = true) :
    (dats m 0 c).flushed 2 t
      = ((cfg0.win 2).blk t).view.read (Elt F)
          ((outsAt0 m c 511 last_lt).1 : Buf (Elt F) ((c.tc : Thread nD τ).loc main_call0_v2_0)) := by
  have hN : cfg0.N = 512 := N_0
  have h3 : t.val = 511 := by have h1 := (flush0_2 t).mp hf; have h2 := t.isLt; omega
  obtain ⟨i0, i1⟩ := (index_outs t).1
  show (cfg0.win 2).cut (grid0.coords t) ((dats m 0 c).after 2 t) = _
  rw [after0_2, at_last m c t.val t.isLt h3]
  have hz' : (fun a => win0_2.index t a * main_call0_v2_0.ty.shape.size a) = fun _ => 0 := funext fun a => by
    match a with
    | ⟨0, _⟩ => show win0_2.index t 0 * 8 = 0; rw [i0]
    | ⟨1, _⟩ => show win0_2.index t 1 * 2000 = 0; rw [i1]
  exact (Memref.read_access_unit_zero (Elt F) main_call0_v2_0 hz' (fun a => by rw [congrFun hz' a]; simp) _).symm

/-- So the box accumulator's array ends holding what the last point left. -/
theorem final_box (c : Dev nD) :
    (dats m 0 c).arrAt 2 cfg0.N = (outsAt0 m c 511 last_lt).1 :=
  (dats m 0 c).arrAt_eq_of_cover 2 _ (flushed_box m c) fun i =>
    ⟨last, (flush0_2 last).mpr rfl, by
      obtain ⟨i0, i1⟩ := (index_outs last).1
      show i ∈ ((View.whole main_call0_v2_0).slice (win0_2.rect last)).set
      rw [View.set_slice_whole, Rect.mem_set_unit]
      intro a
      have h0 : (i 0 : Nat) < 8 := (i 0).isLt
      have h1 : (i 1 : Nat) < 2000 := (i 1).isLt
      match a with
      | ⟨0, _⟩ =>
        show win0_2.index last 0 * 8 ≤ (i 0 : Nat) ∧ (i 0 : Nat) < win0_2.index last 0 * 8 + 8
        rw [i0]; omega
      | ⟨1, _⟩ =>
        show win0_2.index last 1 * 2000 ≤ (i 1 : Nat) ∧ (i 1 : Nat) < win0_2.index last 1 * 2000 + 2000
        rw [i1]; omega⟩

/-- The one write-back of the mask accumulator, at the last point, writes what that point left: the block at index
    (0, 0) of an array of the block's own shape is the whole array. -/
theorem flushed_mask (c : Dev nD) (t : Fin cfg0.N) (hf : (cfg0.win 3).flush t = true) :
    (dats m 0 c).flushed 3 t
      = ((cfg0.win 3).blk t).view.read (Elt F)
          ((outsAt0 m c 511 last_lt).2.1 : Buf (Elt F) ((c.tc : Thread nD τ).loc main_call0_v2_1)) := by
  have hN : cfg0.N = 512 := N_0
  have h3 : t.val = 511 := by have h1 := (flush0_3 t).mp hf; have h2 := t.isLt; omega
  obtain ⟨i0, i1⟩ := (index_outs t).2.1
  show (cfg0.win 3).cut (grid0.coords t) ((dats m 0 c).after 3 t) = _
  rw [after0_3, at_last m c t.val t.isLt h3]
  have hz' : (fun a => win0_3.index t a * main_call0_v2_1.ty.shape.size a) = fun _ => 0 := funext fun a => by
    match a with
    | ⟨0, _⟩ => show win0_3.index t 0 * 8 = 0; rw [i0]
    | ⟨1, _⟩ => show win0_3.index t 1 * 2000 = 0; rw [i1]
  exact (Memref.read_access_unit_zero (Elt F) main_call0_v2_1 hz' (fun a => by rw [congrFun hz' a]; simp) _).symm

/-- So the mask accumulator's array ends holding what the last point left. -/
theorem final_mask (c : Dev nD) :
    (dats m 0 c).arrAt 3 cfg0.N = (outsAt0 m c 511 last_lt).2.1 :=
  (dats m 0 c).arrAt_eq_of_cover 3 _ (flushed_mask m c) fun i =>
    ⟨last, (flush0_3 last).mpr rfl, by
      obtain ⟨i0, i1⟩ := (index_outs last).2.1
      show i ∈ ((View.whole main_call0_v2_1).slice (win0_3.rect last)).set
      rw [View.set_slice_whole, Rect.mem_set_unit]
      intro a
      have h0 : (i 0 : Nat) < 8 := (i 0).isLt
      have h1 : (i 1 : Nat) < 2000 := (i 1).isLt
      match a with
      | ⟨0, _⟩ =>
        show win0_3.index last 0 * 8 ≤ (i 0 : Nat) ∧ (i 0 : Nat) < win0_3.index last 0 * 8 + 8
        rw [i0]; omega
      | ⟨1, _⟩ =>
        show win0_3.index last 1 * 2000 ≤ (i 1 : Nat) ∧ (i 1 : Nat) < win0_3.index last 1 * 2000 + 2000
        rw [i1]; omega⟩

/-- The one write-back of the square accumulator, at the last point, writes what that point left: the block at index
    (0, 0) of an array of the block's own shape is the whole array. -/
theorem flushed_square (c : Dev nD) (t : Fin cfg0.N) (hf : (cfg0.win 4).flush t = true) :
    (dats m 0 c).flushed 4 t
      = ((cfg0.win 4).blk t).view.read (Elt F)
          ((outsAt0 m c 511 last_lt).2.2 : Buf (Elt F) ((c.tc : Thread nD τ).loc main_call0_v2_2)) := by
  have hN : cfg0.N = 512 := N_0
  have h3 : t.val = 511 := by have h1 := (flush0_4 t).mp hf; have h2 := t.isLt; omega
  obtain ⟨i0, i1⟩ := (index_outs t).2.2
  show (cfg0.win 4).cut (grid0.coords t) ((dats m 0 c).after 4 t) = _
  rw [after0_4, at_last m c t.val t.isLt h3]
  have hz' : (fun a => win0_4.index t a * main_call0_v2_2.ty.shape.size a) = fun _ => 0 := funext fun a => by
    match a with
    | ⟨0, _⟩ => show win0_4.index t 0 * 8 = 0; rw [i0]
    | ⟨1, _⟩ => show win0_4.index t 1 * 2000 = 0; rw [i1]
  exact (Memref.read_access_unit_zero (Elt F) main_call0_v2_2 hz' (fun a => by rw [congrFun hz' a]; simp) _).symm

/-- So the square accumulator's array ends holding what the last point left. -/
theorem final_square (c : Dev nD) :
    (dats m 0 c).arrAt 4 cfg0.N = (outsAt0 m c 511 last_lt).2.2 :=
  (dats m 0 c).arrAt_eq_of_cover 4 _ (flushed_square m c) fun i =>
    ⟨last, (flush0_4 last).mpr rfl, by
      obtain ⟨i0, i1⟩ := (index_outs last).2.2
      show i ∈ ((View.whole main_call0_v2_2).slice (win0_4.rect last)).set
      rw [View.set_slice_whole, Rect.mem_set_unit]
      intro a
      have h0 : (i 0 : Nat) < 8 := (i 0).isLt
      have h1 : (i 1 : Nat) < 2000 := (i 1).isLt
      match a with
      | ⟨0, _⟩ =>
        show win0_4.index last 0 * 8 ≤ (i 0 : Nat) ∧ (i 0 : Nat) < win0_4.index last 0 * 8 + 8
        rw [i0]; omega
      | ⟨1, _⟩ =>
        show win0_4.index last 1 * 2000 ≤ (i 1 : Nat) ∧ (i 1 : Nat) < win0_4.index last 1 * 2000 + 2000
        rw [i1]; omega⟩

end Cert.KernelIdeal.Acc

end
-- ==== Proof.RefRows.lean ====
/-
  The reference's three per-row quantities are the row functions of its re-laid arguments.

  The reference re-lays each argument to [4096, 2000, 5], slices lane 0 and drops the unit axis to get the class
  score and class target per (row, anchor), and slices lanes 1 to 4 for the box coordinates. Read at (b, g):
      the converted comparison  is  cls;
      (1 / (1 + e^(-score)) - cls)²  is  sqe, the quotient being the sigmoid on every extended real;
      cls · ((0 + sum over four lanes of (difference)²) / 4)  is  mbx.
  The index arithmetic: position b·2000 + g of [4096, 2000] is position (b, g, 0) of [4096, 2000, 1], and lane k of
  the four-lane slice is lane 1 + k of the five.
-/
import proofs.«109152_j14594298871844_2_alg».proof.Proof.Gen.ReferenceIdeal.Read
import proofs.«109152_j14594298871844_2_alg».proof.Proof.Loss

noncomputable section

open scoped BigOperators
open Idealize.ShloMosaic Idealize.ShloMosaic.ValueIdx

namespace Cert.ReferenceIdeal.Rows

open Cert.ReferenceIdeal Cert.ReferenceIdeal.Read Cert.Loss

variable (x0 x1 : (⟨S4096x10000, .f32⟩ : BufTy).Contents (Elt Ideal))

/-- The first argument re-laid as rows × anchors × lanes. -/
abbrev scores : Arr := val_main_v0 (F := Ideal) x0
/-- The second argument re-laid. -/
abbrev targets : Arr := val_main_v1 (F := Ideal) x1

/-! ## Index arithmetic -/

theorem score_idx (b : Fin 4096) (g : Fin 2000) : idx_main_v2 (idx_main_v3 (ix2 b g)) = ix3 b g 0 :=
  funext fun a => Fin.ext (by
    match a with
    | ⟨0, _⟩ => show (b.val * 2000 + g.val) / 2000 = b.val; omega
    | ⟨1, _⟩ => show (b.val * 2000 + g.val) / 1 % 2000 = g.val; omega
    | ⟨2, _⟩ => rfl)

theorem target_idx (b : Fin 4096) (g : Fin 2000) : idx_main_v4 (idx_main_v5 (ix2 b g)) = ix3 b g 0 :=
  funext fun a => Fin.ext (by
    match a with
    | ⟨0, _⟩ => show (b.val * 2000 + g.val) / 2000 = b.val; omega
    | ⟨1, _⟩ => show (b.val * 2000 + g.val) / 1 % 2000 = g.val; omega
    | ⟨2, _⟩ => rfl)

theorem coord_idx (b : Fin 4096) (g : Fin 2000) (k : Fin 4) :
    idx_main_v19 (idx_main_v23 (ix2 b g) k) = ix3 b g ⟨1 + k.val, by omega⟩ :=
  funext fun a => Fin.ext (by
    match a with
    | ⟨0, _⟩ => rfl
    | ⟨1, _⟩ => rfl
    | ⟨2, _⟩ => rfl)

theorem coord_idx' (b : Fin 4096) (g : Fin 2000) (k : Fin 4) :
    idx_main_v20 (idx_main_v23 (ix2 b g) k) = ix3 b g ⟨1 + k.val, by omega⟩ :=
  funext fun a => Fin.ext (by
    match a with
    | ⟨0, _⟩ => rfl
    | ⟨1, _⟩ => rfl
    | ⟨2, _⟩ => rfl)

/-! ## The three quantities -/

/-- The class target. -/
theorem cls_ref (b : Fin 4096) (g : Fin 2000) :
    val_main_v8 (F := Ideal) x1 (ix2 b g) = cls (targets x1) b g := by
  rw [val_main_v8_apply, val_main_v7_apply, val_main_v5_apply, val_main_v4_apply, val_main_v6_apply, val_main_cst_apply,
    target_idx]
  exact mask_of_unsigned _

/-- The squared error of the sigmoid. -/
theorem sqe_ref (b : Fin 4096) (g : Fin 2000) :
    val_main_v16 (F := Ideal) x0 x1 (ix2 b g) = sqe (scores x0) (targets x1) b g := by
  rw [val_main_v16_apply, val_main_v15_apply, cls_ref, val_main_v14_apply, val_main_v13_apply, val_main_cst_1_apply,
    val_main_v12_apply, val_main_v11_apply, val_main_cst_0_apply, val_main_v10_apply, val_main_v9_apply,
    val_main_v3_apply, val_main_v2_apply, score_idx]
  rw [show FloatOps.ofBits (F := Ideal) .f32 0x3F800000#32 = (1 : Ideal .f32) from Ideal.ofBits_one_f32]
  rfl

/-- One lane's squared coordinate difference. -/
theorem coord_ref (b : Fin 4096) (g : Fin 2000) (k : Fin 4) :
    val_main_v22 (F := Ideal) x0 x1 (idx_main_v23 (ix2 b g) k)
      = (scores x0 (ix3 b g ⟨1 + k.val, by omega⟩) - targets x1 (ix3 b g ⟨1 + k.val, by omega⟩))
        * (scores x0 (ix3 b g ⟨1 + k.val, by omega⟩) - targets x1 (ix3 b g ⟨1 + k.val, by omega⟩)) := by
  rw [val_main_v22_apply, val_main_v21_apply, val_main_v19_apply, val_main_v20_apply, coord_idx, coord_idx']
  rfl

/-- The masked box error. -/
theorem mbx_ref (b : Fin 4096) (g : Fin 2000) :
    val_main_v26 (F := Ideal) x0 x1 (ix2 b g) = mbx (scores x0) (targets x1) b g := by
  rw [val_main_v26_apply, cls_ref, val_main_v25_apply, val_main_v24_apply, val_main_cst_5_apply, val_main_v23_apply,
    val_main_cst_4_apply, Finset.sum_congr rfl fun k _ => coord_ref x0 x1 b g k]
  exact congrArg (cls (targets x1) b g * ·)
    (box_of_mean fun k : Fin 4 =>
      scores x0 (ix3 b g ⟨1 + k.val, by omega⟩) - targets x1 (ix3 b g ⟨1 + k.val, by omega⟩))

end Cert.ReferenceIdeal.Rows

end
-- ==== Proof.Sums.lean ====
/-
  The three host sums of the accumulators are the reference's three sums over all rows.

  After the region the host sums the box and mask accumulators over their eight rows, per anchor, and the square
  accumulator over all its entries. Accumulator row r holds the sum over the 512 points s of the row function at row
  8s + r; summing that over r = 0 … 7 reaches every row below 4096 exactly once. So, per anchor g,
      Σ_r Σ_s f(8s + r, g) = Σ_b f(b, g),
  which is what the reference sums directly; and the sum over all (r, g) is the sum over all (b, g). The row functions
  on the two sides are the same functions of the same re-laid arguments. Only commutativity and associativity of the
  sum are used, so no finiteness of the inputs is needed.
-/
import proofs.«109152_j14594298871844_2_alg».proof.Proof.Fold
import proofs.«109152_j14594298871844_2_alg».proof.Proof.Outputs
import proofs.«109152_j14594298871844_2_alg».proof.Proof.RefRows
import Idealize.ShloMosaic.PureOps.Ideal.Laws

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.Loss
open Cert.ReferenceIdeal.Read (val_main_v27 val_main_v28 val_main_v17 val_main_v26 val_main_v8 val_main_v16)

variable (m : (ℓ : Loc nD τ sig) → Buf (Elt Ideal) ℓ)

/-! ## The two sides read the same arrays -/

theorem scores_eq (c : Dev nD) : scores m c = Cert.ReferenceIdeal.Rows.scores (m ((c.tc : Thread nD τ).loc main_arg0)) := by
  show (V m c main_call0_v0 : Vec Ideal S4096x2000x5 .f32) = _
  rw [found_first m c]
  rfl

theorem targets_eq (c : Dev nD) : targets m c = Cert.ReferenceIdeal.Rows.targets (m ((c.tc : Thread nD τ).loc main_arg1)) := by
  show (V m c main_call0_v1 : Vec Ideal S4096x2000x5 .f32) = _
  rw [found_second m c]
  rfl

/-! ## The host's sum over the eight rows -/

/-- At anchor `g`: the initial value plus the eight rows' entries. -/
theorem rows_sum (A : FVec Ideal S8x2000 .f32) (z : FVec Ideal S_ .f32) (g : Fin 2000) :
    Host.reduceAdd A z reducesTo_S8x2000_S2000_d0 h_S_ (ix1 g) = z (Shape.Idx.first h_S_) + ∑ r : Fin 8, A (ix2 r g) := by
  simp only [Host.reduceAdd, Ideal.hostReduceAdd_def]
  rw [Ideal.hostReduceAdd_single reducesTo_S8x2000_S2000_d0 (by decide)]
  refine congrArg (_ + ·) (Finset.sum_congr rfl fun k _ => ?_)
  exact congrArg A (funext fun a => Fin.ext (by match a with | ⟨0, _⟩ => rfl | ⟨1, _⟩ => rfl))

/-- The reference's row index `k` at anchor `g`. -/
theorem row_idx27 (g : Fin 2000) (k : Fin 4096) : Cert.ReferenceIdeal.Read.idx_main_v27 (ix1 g) k = ix2 k g :=
  funext fun a => Fin.ext (by match a with | ⟨0, _⟩ => rfl | ⟨1, _⟩ => rfl)
theorem row_idx28 (g : Fin 2000) (k : Fin 4096) : Cert.ReferenceIdeal.Read.idx_main_v28 (ix1 g) k = ix2 k g :=
  funext fun a => Fin.ext (by match a with | ⟨0, _⟩ => rfl | ⟨1, _⟩ => rfl)

/-! ## The three sums -/

/-- The masked box error summed over all rows, per anchor. -/
theorem box_sum (c : Dev nD) :
    (Host.reduceAdd ((outsAt0 m c 511 last_lt).1 : FVec Ideal S8x2000 .f32) (constant S_ .f32 0x00000000#32)
        reducesTo_S8x2000_S2000_d0 h_S_ : FVec Ideal S2000 .f32)
      = val_main_v27 (F := Ideal) (m ((c.tc : Thread nD τ).loc main_arg0)) (m ((c.tc : Thread nD τ).loc main_arg1)) := by
  funext i
  obtain ⟨g, rfl⟩ : ∃ g : Fin 2000, i = ix1 g := ⟨i 0, eq_ix1 i⟩
  rw [rows_sum, Cert.ReferenceIdeal.Read.val_main_v27_apply]
  refine congrArg (Ideal.ofBits .f32 0x00000000#32 + ·) ?_
  rw [Finset.sum_congr rfl fun r _ => box_upto m c 511 last_lt (ix2 r g)]
  simp only [zero_add, Nat.reduceAdd]
  rw [Finset.sum_congr rfl fun k _ => (congrArg (val_main_v26 (F := Ideal) (m ((c.tc : Thread nD τ).loc main_arg0)) (m ((c.tc : Thread nD τ).loc main_arg1))) (row_idx27 g k)).trans
    (Cert.ReferenceIdeal.Rows.mbx_ref (m ((c.tc : Thread nD τ).loc main_arg0)) (m ((c.tc : Thread nD τ).loc main_arg1)) k g), ← scores_eq m c, ← targets_eq m c]
  exact sum_residues fun b => mbx (scores m c) (targets m c) b g

/-- The mask summed over all rows, per anchor. -/
theorem mask_sum (c : Dev nD) :
    (Host.reduceAdd ((outsAt0 m c 511 last_lt).2.1 : FVec Ideal S8x2000 .f32) (constant S_ .f32 0x00000000#32)
        reducesTo_S8x2000_S2000_d0 h_S_ : FVec Ideal S2000 .f32)
      = val_main_v28 (F := Ideal) (m ((c.tc : Thread nD τ).loc main_arg1)) := by
  funext i
  obtain ⟨g, rfl⟩ : ∃ g : Fin 2000, i = ix1 g := ⟨i 0, eq_ix1 i⟩
  rw [rows_sum, Cert.ReferenceIdeal.Read.val_main_v28_apply]
  refine congrArg (Ideal.ofBits .f32 0x00000000#32 + ·) ?_
  rw [Finset.sum_congr rfl fun r _ => mask_upto m c 511 last_lt (ix2 r g)]
  simp only [zero_add, Nat.reduceAdd]
  rw [Finset.sum_congr rfl fun k _ => (congrArg (val_main_v8 (F := Ideal) (m ((c.tc : Thread nD τ).loc main_arg1))) (row_idx28 g k)).trans
    (Cert.ReferenceIdeal.Rows.cls_ref (m ((c.tc : Thread nD τ).loc main_arg1)) k g), ← targets_eq m c]
  exact sum_residues fun b => cls (targets m c) b g

/-- The squared error summed over all rows and anchors. -/
theorem square_sum (c : Dev nD) :
    (Host.reduceAdd ((outsAt0 m c 511 last_lt).2.2 : FVec Ideal S8x2000 .f32) (constant S_ .f32 0x00000000#32)
        reducesTo_S8x2000_S_d0_1 h_S_ : FVec Ideal S_ .f32)
      = val_main_v17 (F := Ideal) (m ((c.tc : Thread nD τ).loc main_arg0)) (m ((c.tc : Thread nD τ).loc main_arg1)) := by
  funext i
  rw [Cert.ReferenceIdeal.Read.val_main_v17_apply]
  simp only [Host.reduceAdd, Ideal.hostReduceAdd_def]
  rw [Ideal.hostReduceAdd_total reducesTo_S8x2000_S_d0_1 (fun b => b.elim0)]
  refine congrArg (Ideal.ofBits .f32 0x00000000#32 + ·) ?_
  have L : ∑ j : S8x2000.Idx, ((outsAt0 m c 511 last_lt).2.2 : FVec Ideal S8x2000 .f32) j
      = ∑ g : Fin 2000, ∑ r : Fin 8, ((outsAt0 m c 511 last_lt).2.2 : FVec Ideal S8x2000 .f32) (ix2 r g) :=
    (sum_idx2 _).trans Finset.sum_comm
  have R : ∑ j : Cert.ReferenceIdeal.S4096x2000.Idx, val_main_v16 (F := Ideal) (m ((c.tc : Thread nD τ).loc main_arg0)) (m ((c.tc : Thread nD τ).loc main_arg1)) j
      = ∑ g : Fin 2000, ∑ b : Fin 4096, val_main_v16 (F := Ideal) (m ((c.tc : Thread nD τ).loc main_arg0)) (m ((c.tc : Thread nD τ).loc main_arg1)) (ix2 b g) :=
    (sum_idx2 _).trans Finset.sum_comm
  rw [L, R]
  refine Finset.sum_congr rfl fun g _ => ?_
  rw [Finset.sum_congr rfl fun r _ => square_upto m c 511 last_lt (ix2 r g)]
  simp only [zero_add, Nat.reduceAdd]
  rw [Finset.sum_congr rfl fun b _ => Cert.ReferenceIdeal.Rows.sqe_ref (m ((c.tc : Thread nD τ).loc main_arg0)) (m ((c.tc : Thread nD τ).loc main_arg1)) b g, ← scores_eq m c, ← targets_eq m c]
  exact sum_residues fun b => sqe (scores m c) (targets m c) b g

end Cert.KernelIdeal.Acc

end
-- ==== Proof.Result.lean ====
/-
  The kernel's result.

  After the region the host finishes the loss from the three accumulators' arrays: the box and mask accumulators are
  summed over their eight rows per anchor, the mask sum gets the small constant added, the quotients are summed over
  the anchors and scaled by the weight; the square accumulator is summed over all entries and divided by the number of
  (row, anchor) pairs; the two are added. These are, operation for operation and word for word, the reference's last
  lines, applied to the three sums instead of the reference's own three sums over all rows. Those sums are equal, so
  the kernel's result is the reference's last stage of the same arguments.
-/
import proofs.«109152_j14594298871844_2_alg».proof.Proof.Sums
import Idealize.ShloMosaic.Lib.StableHlo.Run

noncomputable section

open Idealize.ShloMosaic Idealize.ShloMosaic.TcCoe Idealize.SL.Sem

namespace Cert.KernelIdeal.Acc

open Cert.KernelIdeal Cert.KernelIdeal.Gen
open Cert.ReferenceIdeal.Read (val_main_v34)

variable (m : (ℓ : Loc nD τ sig) → Buf (Elt Ideal) ℓ) (ρ : Dev nD → PrngReg)

/-- The host's lines after the region, as one function of the three output arrays. -/
def tail (A2 A3 A4 : FVec Ideal S8x2000 .f32) : FVec Ideal S_ .f32 :=
  addf
    (Host.divf (Host.reduceAdd A4 (constant (F := Ideal) S_ .f32 0x00000000#32) reducesTo_S8x2000_S_d0_1 h_S_) (constant (F := Ideal) S_ .f32 0x4AFA0000#32))
    (mulf (constant (F := Ideal) S_ .f32 0x3DCCCCCD#32)
      (Host.reduceAdd
        (Host.divf (Host.reduceAdd A2 (constant (F := Ideal) S_ .f32 0x00000000#32) reducesTo_S8x2000_S2000_d0 h_S_)
          (addf (Host.reduceAdd A3 (constant (F := Ideal) S_ .f32 0x00000000#32) reducesTo_S8x2000_S2000_d0 h_S_)
            (broadcastInDim S2000 ![] bcast_S_S2000 (constant (F := Ideal) S_ .f32 0x3727C5AC#32))))
        (constant (F := Ideal) S_ .f32 0x00000000#32) reducesTo_S2000_S_d0 h_S_))

/-- What the result buffer holds after the tail, over the arrays the region left. -/
theorem tail_eq (c : Dev nD) :
    Pipeline.afterTail₀ cfgs (dats m) 0 (V0 m) [hostOps1] c main_v0
      = tail (Pipeline.withArrays (cfgs 0).spec c (V0 m c) (fun w => (dats m 0 c).arrAt w (cfgs 0).N) (Proc.devRef .tc main_call0_v2_0))
          (Pipeline.withArrays (cfgs 0).spec c (V0 m c) (fun w => (dats m 0 c).arrAt w (cfgs 0).N) (Proc.devRef .tc main_call0_v2_1))
          (Pipeline.withArrays (cfgs 0).spec c (V0 m c) (fun w => (dats m 0 c).arrAt w (cfgs 0).N) (Proc.devRef .tc main_call0_v2_2)) := by
  unfold Pipeline.afterTail₀
  show StableHlo.after hostOps1 _ (Proc.devRef .tc main_v0) = _
  after_results
  rfl

/-- The three arrays the region left are what the last point left in the accumulators. -/
theorem left_box (c : Dev nD) : (Pipeline.withArrays (cfgs 0).spec c (V0 m c) (fun w => (dats m 0 c).arrAt w (cfgs 0).N) (Proc.devRef .tc main_call0_v2_0)) = (outsAt0 m c 511 last_lt).1 :=
  (Pipeline.withArrays_arr spec0 launch0.win.arr_inj c _ _ 2).trans (final_box m c)
theorem left_mask (c : Dev nD) : (Pipeline.withArrays (cfgs 0).spec c (V0 m c) (fun w => (dats m 0 c).arrAt w (cfgs 0).N) (Proc.devRef .tc main_call0_v2_1)) = (outsAt0 m c 511 last_lt).2.1 :=
  (Pipeline.withArrays_arr spec0 launch0.win.arr_inj c _ _ 3).trans (final_mask m c)
theorem left_square (c : Dev nD) : (Pipeline.withArrays (cfgs 0).spec c (V0 m c) (fun w => (dats m 0 c).arrAt w (cfgs 0).N) (Proc.devRef .tc main_call0_v2_2)) = (outsAt0 m c 511 last_lt).2.2 :=
  (Pipeline.withArrays_arr spec0 launch0.win.arr_inj c _ _ 4).trans (final_square m c)

/-- The kernel's result is the reference's last stage of the same two arguments. -/
theorem result_eq (c : Dev nD) :
    Pipeline.afterTail₀ cfgs (dats m) 0 (V0 m) [hostOps1] c main_v0
      = val_main_v34 (F := Ideal) (m ((c.tc : Thread nD τ).loc main_arg0)) (m ((c.tc : Thread nD τ).loc main_arg1)) := by
  rw [tail_eq, left_box, left_mask, left_square]
  unfold tail
  rw [square_sum, box_sum, mask_sum]
  rfl

/-- The run: every weakly fair execution terminates with the result buffer at the reference's last stage of the
    arguments, the arguments unchanged. -/
theorem run : θ_run defs (onTc (τ := τ) (main (F := Ideal))) ⟨m, fun _ => 0, ρ⟩ fun r => ∀ c : Dev nD,
      r.2.mem ((c.tc : Thread nD τ).loc main_v0) = val_main_v34 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Acc

end
-- ==== Proof.lean ====
/-
  The kernel and its reference compute the same loss over the extended reals.

  Both take two [4096, 10000] arrays and view each as 4096 rows × 2000 anchors × 5 lanes. Per row and anchor: cls is 1
  when the second array's lane 0 is positive and 0 otherwise; sqe is (sigmoid(first array's lane 0) - cls)²; mbx is cls
  times the mean over lanes 1 to 4 of the squared difference of the two arrays. The loss is
      (Σ over rows and anchors of sqe) / 8192000  +  0.1 · Σ over anchors of (Σ over rows of mbx) / (Σ over rows of cls + 1e-5).

  The reference sums over all 4096 rows at once. The kernel walks the rows in 512 tiles of eight: three [8, 2000]
  accumulators are zeroed at the first tile and each tile adds its eight rows' terms to them, so accumulator row r ends
  with the sum over rows r, 8 + r, 16 + r, …; the host then sums the eight accumulator rows and finishes with the same
  divisions, the same small constant and the same weight as the reference. Every row below 4096 is 8s + r for exactly
  one tile s and one r below 8, so the two-level sums are the sums over all rows.

  Where the two programs spell a step differently the spellings agree on every extended real: the comparison's bit read
  as an unsigned integer, or widened and read as a signed one, is 0 or 1 either way; the sigmoid as one operation is
  1 / (1 + e^(-x)) by definition; a mean over four lanes as a division by 4 is the product with the word of 0.25, which
  denotes exactly 1/4. The regrouping of the sums uses only that addition of extended reals is commutative and
  associative with neutral 0. So the equality never uses that the inputs are finite.

  The frames of the two kernel programs are the generated ones; the reference's frame is its run with the result dropped;
  the idealization rewrote nothing, so there is nothing to preserve.
-/
import proofs.«109152_j14594298871844_2_alg».proof.Defs
import proofs.«109152_j14594298871844_2_alg».proof.Proof.Gen.Kernel
import proofs.«109152_j14594298871844_2_alg».proof.Proof.Gen.Kernel.Skeleton
import proofs.«109152_j14594298871844_2_alg».proof.Proof.Gen.Kernel.Launch
import proofs.«109152_j14594298871844_2_alg».proof.Proof.Gen.Kernel.Points
import proofs.«109152_j14594298871844_2_alg».proof.Proof.Gen.Kernel.Frame
import proofs.«109152_j14594298871844_2_alg».proof.Proof.Gen.KernelIdeal
import proofs.«109152_j14594298871844_2_alg».proof.Proof.Gen.KernelIdeal.Skeleton
import proofs.«109152_j14594298871844_2_alg».proof.Proof.Gen.KernelIdeal.Launch
import proofs.«109152_j14594298871844_2_alg».proof.Proof.Gen.KernelIdeal.Points
import proofs.«109152_j14594298871844_2_alg».proof.Proof.Gen.KernelIdeal.Frame
import proofs.«109152_j14594298871844_2_alg».proof.Proof.Gen.ReferenceIdeal
import proofs.«109152_j14594298871844_2_alg».proof.Proof.Gen.Pre_finite_inputs
import proofs.«109152_j14594298871844_2_alg».proof.Proof.Gen.ReferenceIdeal.Run
import proofs.«109152_j14594298871844_2_alg».proof.Proof.Gen.ReferenceIdeal.Read
import proofs.«109152_j14594298871844_2_alg».proof.Proof.Result
import Idealize.ShloMosaic.Adequacy
import Idealize.ShloMosaic.Init

noncomputable section

namespace Cert.Proof

open Idealize.ShloMosaic Idealize.ShloMosaic.TcCoe Idealize.SL.Sem

/-- The printed kernel runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two arguments, both programs end with the reference's last stage of those arguments
    in their result buffers. -/
theorem algebraic : Cert.algebraic_KernelIdeal_ReferenceIdeal := by
  intro m ρ m' ρ' _ hagree
  refine ⟨fun c => Cert.ReferenceIdeal.Read.val_main_v34 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Acc.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v34_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
